-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x3x4096 : Shape := ⟨3, ![16, 3, 4096]⟩
abbrev S16x3x512 : Shape := ⟨3, ![16, 3, 512]⟩
abbrev S16x512 : Shape := ⟨2, ![16, 512]⟩
abbrev S16x512x512 : Shape := ⟨3, ![16, 512, 512]⟩
abbrev S16x1x512 : Shape := ⟨3, ![16, 1, 512]⟩
abbrev S16 : Shape := ⟨1, ![16]⟩

abbrev nBuf : Space → Nat
  | .hbm => 21
  | .vmem => 11
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S_, .f32⟩
  | .hbm, ⟨9, _⟩ => ⟨S16x4096x3, .f32⟩
  | .hbm, ⟨10, _⟩ => ⟨S16x4096x3, .f32⟩
  | .hbm, ⟨11, _⟩ => ⟨S16x3x4096, .f32⟩
  | .hbm, ⟨12, _⟩ => ⟨S16x3x4096, .f32⟩
  | .hbm, ⟨13, _⟩ => ⟨S16x4096, .f32⟩
  | .hbm, ⟨14, _⟩ => ⟨S_, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S_, .f32⟩
  | .local _ .vmem, ⟨0, _⟩ => ⟨S16x3x512, .f32⟩
  | .local _ .vmem, ⟨1, _⟩ => ⟨S16x3x512, .f32⟩
  | .local _ .vmem, ⟨2, _⟩ => ⟨S16x3x512, .f32⟩
  | .local _ .vmem, ⟨3, _⟩ => ⟨S16x3x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16x4096x3_S16x4096_d2 : S16x4096x3.ReducesTo [2] S16x4096
  h_S_ : 0 < S_.numel
  bcast_S_S16x4096x3 : S_.BroadcastsInDim S16x4096x3 (![] : Fin 0 → Fin S16x4096x3.rank)
  transposes_S16x4096x3_S16x3x4096_0_2_1 : S16x4096x3.Transposes [0, 2, 1] S16x3x4096
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x3x512_S16x3x512_0_0_0 : ∀ a, (![0, 0, 0] : Fin 3 → Nat) a + S16x3x512.size a ≤ S16x3x512.size a
  h_S16x3x512 : 0 < S16x3x512.numel
  shapeCasts_S16x3x512_S16x3x512 : S16x3x512.ShapeCasts S16x3x512
  shapeCasts_S16x512_S16x1x512 : S16x512.ShapeCasts S16x1x512
  broadcasts_S16x1x512_S16x512x512 : S16x1x512.Broadcasts S16x512x512
  reduces_S16x512x512_S16x512 : S16x512x512.Reduces [2] S16x512
  reducesTo_S16x4096_S16_d1 : S16x4096.ReducesTo [1] S16
  bcast_S_S16 : S_.BroadcastsInDim S16 (![] : Fin 0 → Fin S16.rank)
  reducesTo_S16_S_d0 : S16.ReducesTo [0] S_
  dot_S16x3x512_S16x3x512_S16x512x512_1_1_2_2_0_0_wf : DotDims.WF S16x3x512 S16x3x512 S16x512x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x512.size a ≤ S16x3x4096.size a
  hwx0_0 : ∀ i : grid0.Coords, EltTy.bits .f32 = 32 ∨ (Rect.block (s := S16x3x4096) S16x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x512.size a ≤ S16x3x4096.size a
  hwx0_1 : ∀ i : grid0.Coords, EltTy.bits .f32 = 32 ∨ (Rect.block (s := S16x3x4096) S16x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x4096.size a
  hwx0_4 : ∀ i : grid0.Coords, EltTy.bits .f32 = 32 ∨ (Rect.block (s := S16x4096) S16x512.size (cc0_transform_4 i) (hinb0_4 i)).WholeWords (EltTy.packing .f32)

variable [Facts₀]

def dot_S16x3x512_S16x3x512_S16x512x512_1_1_2_2_0_0 : DotDims S16x3x512 S16x3x512 S16x512x512 where
  lhsContracting := [1]
  rhsContracting := [1]
  lhsNonContracting := [2]
  rhsNonContracting := [2]
  lhsBatch := [0]
  rhsBatch := [0]
  wf := dot_S16x3x512_S16x3x512_S16x512x512_1_1_2_2_0_0_wf

abbrev win0_0 : Pipeline.Window sig grid0 :=
  Pipeline.Window.ofSpec (Memref.whole main_v6) S16x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.KPieces.lean ====
/-
  What the body leaves behind at one grid point, as a term of what it loaded.

  A grid point (i, j) works on query tile `i` (512 points of every cloud of `x`) and key tile `j` (512 points of
  every cloud of `y`). The body keeps a running minimum per query point. At the first key tile the running minimum
  starts from `+∞`; at every tile it becomes the minimum of itself and of the tile's row minima; at the last key
  tile the output block is `|x_n|²` plus the running minimum. So, whichever of the three kinds of point it is, the
  running minimum after the point is one and the same function `tileStep` of the point's blocks and of the running
  minimum before (the all-`+∞` block at a first tile), and at a last tile the output block is `withNorm` of it.
-/
import proofs.«161748_j60344290509660_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The running minimum after a point: from the query block `xq` (already scaled by -2), the key block `yk`, the key
    norms `y2` and the running minimum before, `acc`. -/
abbrev tileStep (xq yk : Vec F S16x3x512 .f32) (y2 acc : Vec F S16x512 .f32) : Vec F S16x512 .f32 := k0_pay2 xq yk y2 acc

/-- The running minimum a first key tile starts from: `+∞` everywhere. -/
abbrev start : Vec F S16x512 .f32 := k0_pay1 (F := F)

/-- The output block at a last key tile: the query norms `x2` plus the final running minimum. -/
abbrev withNorm (x2 acc : Vec F S16x512 .f32) : Vec F S16x512 .f32 := k0_pay3 x2 acc

/-- At a first key tile the body stores the all-`+∞` block, reads it back, and leaves one step from it. -/
theorem acc_first (c : Dev nD) (i : grid0.Coords) (arg2 : Memref sig .tc .vmem S16x3x512 .f32) (harg2 : arg2.IsWhole) (arg3 : Memref sig .tc .vmem S16x3x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : cond0_0 i) (hc1 : ¬cond0_1 i)
    (x0 : Vec F S16x3x512 .f32) (x1 : Vec F S16x3x512 .f32) (x2 : Vec F S16x512 .f32) (x3 : Vec F S16x512 .f32) :
    sout0_A_0 c i arg2 harg2 arg3 harg3 arg4 harg4 arg5 harg5 arg6 harg6 arg7 harg7 hc0 hc1 x0 x1 x2 x3 = tileStep x0 x1 x3 (start (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x512) hz, View.readCov_unit_zero (S := S16x512) _ hz]
  simp only [View.readAt_eq_ld, harg2.read_unread, harg3.read_unread, harg4.read_unread, harg5.read_unread, harg7.read_unread, View.ld_unit_zero (S := S16x512) hz, View.ld_unit_zero (S := S16x3x512) hz3]

/-- At a middle key tile the body leaves one step from the running minimum it found. -/
theorem acc_middle (c : Dev nD) (i : grid0.Coords) (arg2 : Memref sig .tc .vmem S16x3x512 .f32) (harg2 : arg2.IsWhole) (arg3 : Memref sig .tc .vmem S16x3x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : ¬cond0_1 i)
    (x0 : Vec F S16x3x512 .f32) (x1 : Vec F S16x3x512 .f32) (x2 : Vec F S16x512 .f32) (x3 : Vec F S16x512 .f32) (xs0 : Vec F S16x512 .f32) :
    sout0_B_0 c i arg2 harg2 arg3 harg3 arg4 harg4 arg5 harg5 arg6 harg6 arg7 harg7 hc0 hc1 x0 x1 x2 x3 xs0 = tileStep x0 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread, View.ld_unit_zero (S := S16x512) hz, View.ld_unit_zero (S := S16x3x512) hz3]

/-- At a last key tile the running minimum is stepped the same way, -/
theorem acc_last (c : Dev nD) (i : grid0.Coords) (arg2 : Memref sig .tc .vmem S16x3x512 .f32) (harg2 : arg2.IsWhole) (arg3 : Memref sig .tc .vmem S16x3x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : cond0_1 i)
    (x0 : Vec F S16x3x512 .f32) (x1 : Vec F S16x3x512 .f32) (x2 : Vec F S16x512 .f32) (x3 : Vec F S16x512 .f32) (xs0 : Vec F S16x512 .f32) :
    sout0_C_0 c i arg2 harg2 arg3 harg3 arg4 harg4 arg5 harg5 arg6 harg6 arg7 harg7 hc0 hc1 x0 x1 x2 x3 xs0 = tileStep x0 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S16x512) hz, View.ld_unit_zero (S := S16x3x512) hz3]

/-- and the output block is the query norms plus that stepped minimum, read back from where it was just stored. -/
theorem out_last (c : Dev nD) (i : grid0.Coords) (arg2 : Memref sig .tc .vmem S16x3x512 .f32) (harg2 : arg2.IsWhole) (arg3 : Memref sig .tc .vmem S16x3x512 .f32) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : cond0_1 i)
    (x0 : Vec F S16x3x512 .f32) (x1 : Vec F S16x3x512 .f32) (x2 : Vec F S16x512 .f32) (x3 : Vec F S16x512 .f32) (xs0 : Vec F S16x512 .f32) :
    out0_C_4 c i arg2 harg2 arg3 harg3 arg4 harg4 arg5 harg5 arg6 harg6 arg7 harg7 hc0 hc1 x0 x1 x2 x3 xs0 = withNorm x2 (tileStep x0 x1 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S16x512) _ hz]
  simp only [View.readAt_eq_ld, harg2.read_unread, harg3.read_unread, harg4.read_unread, harg5.read_unread, harg7.read_unread, View.ld_unit_zero (S := S16x512) hz, View.ld_unit_zero (S := S16x3x512) hz3]

end Cert.KernelIdeal.Pieces

end
-- ==== Proof.Consts.lean ====
/-
  The four float literals the two programs spell, as the extended reals they denote: the zero every sum starts
  from, the factor 2 of the reference's cross term, the factor -2 the kernel folds into its first operand, and
  the +infinity every minimum starts from.
-/
import Idealize.ShloMosaic.PureOps.Ideal

noncomputable section

namespace Cert.Chamfer.Consts

open Idealize.ShloMosaic

/-- The word of `+0.0` denotes `0`. -/
theorem ofBits_zero : Ideal.ofBits .f32 0x00000000#32 = 0 := by
  simp [Ideal.ofBits, Ideal.ieee]

/-- The word of `2.0` denotes the real `2`. -/
theorem ofBits_two : Ideal.ofBits .f32 0x40000000#32 = ((2 : ℝ) : EReal) := by
  simp [Ideal.ofBits, Ideal.ieee, -EReal.coe_mul]; norm_num

/-- The word of `-2.0` denotes the real `-2`. -/
theorem ofBits_negTwo : Ideal.ofBits .f32 0xC0000000#32 = ((-2 : ℝ) : EReal) := by
  simp [Ideal.ofBits, Ideal.ieee, -EReal.coe_mul]; norm_num

/-- The word of `+inf` denotes the top of the extended reals. -/
theorem ofBits_inf : Ideal.ofBits .f32 0x7F800000#32 = ⊤ := by
  simp [Ideal.ofBits, Ideal.ieee]

end Cert.Chamfer.Consts

end
-- ==== Proof.KPayload.lean ====
/-
  The body's arithmetic, read at one entry, over the extended reals.

  One step of the running minimum, at query point `r` of cloud `b`: the matrix product of the (scaled) query block
  and the key block is, at (b, r, k), the sum over the three coordinates of query times key; the key norms are laid
  along the last axis and added; the minimum over the tile's 512 keys is taken from `+∞`; and the result is the
  minimum of that and of the running minimum before. At a last tile the output entry is the query norm plus the
  running minimum.
-/
import proofs.«161748_j60344290509660_2_alg».proof.Proof.Gen.KernelIdeal.Skeleton
import proofs.«161748_j60344290509660_2_alg».proof.Proof.Consts
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload

open Cert.KernelIdeal Cert.KernelIdeal.Gen

/-- The record of the body's matrix product: batch axis 0, the contracted axis 1 (the three coordinates), the
    free axes 2 (query) and 2 (key). -/
abbrev D := dot_S16x3x512_S16x3x512_S16x512x512_1_1_2_2_0_0

/-- The left operand is read at (batch, coordinate, query). -/
theorem lhs_idx (b : Fin 16) (r k : Fin 512) (d : Fin 3) :
    D.lhsIdx (ix3 b r k) ((contrEquiv1 D 3 rfl rfl).symm d) = ix3 b d r := by
  have hk := contrEquiv1_symm_val D 3 rfl rfl d
  funext a
  apply Fin.ext
  match a with
  | ⟨0, _⟩ =>
    show (D.lhsIdx (ix3 b r k) _ 0).val = b.val
    unfold DotDims.lhsIdx
    rw [dif_pos (show (0 : Fin S16x3x512.rank) ∈ D.lhsBatch by decide)]
    rfl
  | ⟨1, _⟩ => exact (D.lhsIdx_val_of_single rfl (ix3 b r k) _).trans hk
  | ⟨2, _⟩ =>
    show (D.lhsIdx (ix3 b r k) _ 2).val = r.val
    unfold DotDims.lhsIdx
    rw [dif_neg (show ¬(2 : Fin S16x3x512.rank) ∈ D.lhsBatch by decide), dif_pos (show (2 : Fin S16x3x512.rank) ∈ D.lhsNonContracting by decide)]
    rfl

/-- The right operand is read at (batch, coordinate, key). -/
theorem rhs_idx (b : Fin 16) (r k : Fin 512) (d : Fin 3) :
    D.rhsIdx (ix3 b r k) ((contrEquiv1 D 3 rfl rfl).symm d) = ix3 b d k := by
  have hk := contrEquiv1_symm_val D 3 rfl rfl d
  funext a
  apply Fin.ext
  match a with
  | ⟨0, _⟩ =>
    show (D.rhsIdx (ix3 b r k) _ 0).val = b.val
    unfold DotDims.rhsIdx
    rw [dif_pos (show (0 : Fin S16x3x512.rank) ∈ D.rhsBatch by decide)]
    rfl
  | ⟨1, _⟩ => exact (D.rhsIdx_val_of_single rfl (ix3 b r k) _).trans hk
  | ⟨2, _⟩ =>
    show (D.rhsIdx (ix3 b r k) _ 2).val = k.val
    unfold DotDims.rhsIdx
    rw [dif_neg (show ¬(2 : Fin S16x3x512.rank) ∈ D.rhsBatch by decide), dif_pos (show (2 : Fin S16x3x512.rank) ∈ D.rhsNonContracting by decide)]
    rfl

/-- The matrix product into the zero block, at (b, r, k): the sum over the three coordinates. -/
theorem product_apply (xq yk : FVec Ideal S16x3x512 .f32) (b : Fin 16) (r k : Fin 512) :
    matmul (F := Ideal) D (some .fp32) xq yk (constant (F := Ideal) S16x512x512 .f32 0x00000000#32) (ix3 b r k)
      = ∑ d : Fin 3, xq (ix3 b d r) * yk (ix3 b d k) := by
  refine (Ideal.matmul_constant_zero_apply D (some .fp32) xq yk (ix3 b r k)).trans ?_
  rw [← Equiv.sum_comp (contrEquiv1 D 3 rfl rfl).symm]
  refine Finset.sum_congr rfl fun d _ => ?_
  rw [lhs_idx, rhs_idx]

/-- The key norms laid along the last axis: [16,512] viewed [16,1,512] and repeated over the 512 queries reads,
    at (b, r, k), the norm of key `k`. -/
theorem keyNorms_apply (y2 : FVec Ideal S16x512 .f32) (h1 : S16x512.ShapeCasts S16x1x512)
    (h2 : S16x1x512.Broadcasts S16x512x512) (b : Fin 16) (r k : Fin 512) :
    broadcastTo S16x512x512 (shapeCast S16x1x512 y2 h1) h2 (ix3 b r k) = y2 (ix2 b k) := by
  refine (broadcastTo_apply _ h2 (ix3 b r k) (ix3 b (0 : Fin 1) k) (fun a => ?_)).trans ?_
  · match a with
    | ⟨0, _⟩ => show b.val = if (16 : Nat) = 1 then 0 else b.val; rw [if_neg (by decide)]
    | ⟨1, _⟩ => show 0 = if (1 : Nat) = 1 then 0 else r.val; rw [if_pos rfl]
    | ⟨2, _⟩ => show k.val = if (512 : Nat) = 1 then 0 else k.val; rw [if_neg (by decide)]
  · refine shapeCast_apply y2 h1 (ix3 b (0 : Fin 1) k) (ix2 b k) ?_
    rw [Shape.rowMajor_val_two, Shape.rowMajor_val_three]
    show b.val * 512 + k.val = (b.val * 1 + 0) * 512 + k.val
    omega

/-- A minimum over the last axis of a [16,512,512] block, at (b, r): the minimum, from the accumulator's value, over
    the 512 entries (b, r, ·). -/
theorem laneMin_apply (src : FVec Ideal S16x512x512 .f32) (acc : BitVec 32) (h : S16x512x512.Reduces [2] S16x512)
    (hφ : FKind.Formats .f32) (hacc : acc = FKind.minimumf.neutral .f32 hφ) (b : Fin 16) (r : Fin 512) :
    multiReduction (F := Ideal) .minimumf [2] S16x512 src acc h hφ hacc (ix2 b r)
      = Finset.univ.fold min (Ideal.ofBits .f32 acc) (fun k : Fin 512 => src (ix3 b r k)) := by
  refine (multiReduction_minimumf_eq_fold src acc h hφ hacc (ix2 b r)).trans ?_
  refine (h.fold_filter_drop_single FloatOps.minimumf (FloatOps.ofBits .f32 acc) src (ix2 b r)).trans ?_
  have hf : (src ∘ h.lift (ix2 b r)) = fun k : Fin 512 => src (ix3 b r k) :=
    funext fun k => congrArg src (funext fun c => Fin.ext (by fin_cases c <;> rfl))
  exact congrArg (fun f => Finset.fold min (Ideal.ofBits .f32 acc) f (Finset.univ : Finset (Fin 512))) hf

/-- ONE STEP of the running minimum at query `r` of cloud `b`. -/
theorem step_apply (xq yk : Vec Ideal S16x3x512 .f32) (y2 acc : Vec Ideal S16x512 .f32) (b : Fin 16) (r : Fin 512) :
    k0_pay2 (F := Ideal) xq yk y2 acc (ix2 b r)
      = min (acc (ix2 b r)) (Finset.univ.fold min ⊤ fun k : Fin 512 => y2 (ix2 b k) + ∑ d : Fin 3, xq (ix3 b d r) * yk (ix3 b d k)) := by
  unfold k0_pay2
  simp only [shapeCast_self]
  refine congrArg (min (acc (ix2 b r))) ?_
  refine (laneMin_apply _ _ _ _ _ b r).trans ?_
  refine (congrArg (fun z => Finset.fold min z _ (Finset.univ : Finset (Fin 512))) Cert.Chamfer.Consts.ofBits_inf).trans ?_
  refine congrArg (fun f => Finset.fold min ⊤ f (Finset.univ : Finset (Fin 512))) (funext fun k => ?_)
  exact congrArg₂ (· + ·) (keyNorms_apply y2 _ _ b r k) (product_apply xq yk b r k)

/-- The running minimum a first tile starts from is `⊤` everywhere. -/
theorem start_apply (i : S16x512.Idx) : k0_pay1 (F := Ideal) i = ⊤ := by
  unfold k0_pay1
  simp only [shapeCast_self]
  exact Cert.Chamfer.Consts.ofBits_inf

/-- The output entry at a last tile: the query norm plus the running minimum. -/
theorem withNorm_apply (x2 acc : Vec Ideal S16x512 .f32) (i : S16x512.Idx) :
    k0_pay3 (F := Ideal) x2 acc i = x2 i + acc i := by
  unfold k0_pay3
  simp only [shapeCast_self]
  rfl

end Cert.KernelIdeal.Payload

end
-- ==== Proof.Spec.lean ====
/-
  The mathematics of the nearest-point distance, with no program in sight.

  Two batches of 16 clouds of 4096 points in three coordinates are given, `x` and `y`. For a point `n` of cloud
  `b` of `x` the quantity computed is the least, over the points `m` of cloud `b` of `y`, of the squared distance
  `|x_n|² + |y_m|² - 2 x_n·y_m`. One side forms every squared distance and takes the minimum of the row; the
  other keeps `|x_n|²` out of the minimum, folds the factor `-2` into `x`, and takes the minimum of
  `|y_m|² + (-2 x_n)·y_m` tile by tile, 512 candidates at a time, into a running minimum that starts at `+∞`.

  Here: the two forms of a candidate, the law that joins them on finite inputs (it distributes `-2` over a sum of
  three products, which is sound on real numbers and not at infinities), and the two facts about minima that the
  tiled accumulation needs: a running minimum is known by its lower bounds, and adding a finite number commutes
  with a minimum that starts from `⊤`.
-/
import Idealize.ShloMosaic.PureOps.Ideal
import Idealize.ShloMosaic.Lib.ValueIdx
import proofs.«161748_j60344290509660_2_alg».proof.Proof.Consts

noncomputable section

namespace Cert.Chamfer

open Idealize.ShloMosaic Idealize.ShloMosaic.ValueIdx
open scoped BigOperators

/-- A batch of 16 clouds of 4096 points in three coordinates. -/
abbrev Cloud : Type := (⟨3, ![16, 4096, 3]⟩ : Shape).Idx → EReal
/-- One number per point of each cloud. -/
abbrev Rows : Type := (⟨2, ![16, 4096]⟩ : Shape).Idx → EReal

/-- Every coordinate is a real number. -/
def Finite (p : Cloud) : Prop := ∀ i, ∃ r : ℝ, p i = (r : EReal)

/-- The squared norm of point `n` of cloud `b`: the sum of the three squares, from the zero word. -/
def normSq (p : Cloud) (b : Fin 16) (n : Fin 4096) : EReal :=
  Ideal.ofBits .f32 0x00000000#32 + ∑ d : Fin 3, p (ix3 b n d) * p (ix3 b n d)

/-- The cross term with the factor `-2` folded into the first point. -/
def cross (x y : Cloud) (b : Fin 16) (n m : Fin 4096) : EReal :=
  ∑ d : Fin 3, (Ideal.ofBits .f32 0xC0000000#32 * x (ix3 b n d)) * y (ix3 b m d)

/-- A candidate with `|x_n|²` left out: `|y_m|² + (-2 x_n)·y_m`. -/
def cand (x y : Cloud) (b : Fin 16) (n m : Fin 4096) : EReal := normSq y b m + cross x y b n m

/-- The squared distance as the expansion spells it: `(|x_n|² + |y_m|²) - 2 (x_n·y_m)`. -/
def dist (x y : Cloud) (b : Fin 16) (n m : Fin 4096) : EReal :=
  (normSq x b n + normSq y b m) - Ideal.ofBits .f32 0x40000000#32 * ∑ d : Fin 3, x (ix3 b n d) * y (ix3 b m d)

/-- The squared distance from point `n` of cloud `b` of `x` to the nearest point of cloud `b` of `y`, with `|x_n|²` added
    after the minimum. -/
def nearestAt (x y : Cloud) (b : Fin 16) (n : Fin 4096) : EReal :=
  normSq x b n + Finset.univ.fold min ⊤ (cand x y b n)

/-- The nearest-point distances as an array, one entry per point of each cloud of `x`. -/
def nearest (x y : Cloud) : Rows := fun i => nearestAt x y (i 0) (i 1)

theorem nearest_ix2 (x y : Cloud) (b : Fin 16) (n : Fin 4096) : nearest x y (ix2 b n) = nearestAt x y b n := rfl

/-! ## Minima from `⊤` -/

/-- A number is below the minimum of a finite family, taken from `⊤`, exactly when it is below every member. -/
theorem le_foldMin {ι : Type} [Fintype ι] (f : ι → EReal) (z : EReal) :
    z ≤ Finset.univ.fold min ⊤ f ↔ ∀ k, z ≤ f k := by
  rw [Finset.le_fold_min]
  exact ⟨fun h k => h.2 k (Finset.mem_univ k), fun h => ⟨le_top, fun k _ => h k⟩⟩

/-- `v` is the least of the first `k` candidates `t 0, …, t (k-1)` (`⊤` if there is none), said by its lower bounds. -/
def IsMinBelow (t : Fin 4096 → EReal) (k : Nat) (v : EReal) : Prop :=
  ∀ z : EReal, z ≤ v ↔ ∀ m : Fin 4096, m.val < k → z ≤ t m

/-- Before any candidate the running minimum is `⊤`. -/
theorem isMinBelow_zero (t : Fin 4096 → EReal) : IsMinBelow t 0 ⊤ :=
  fun _ => ⟨fun _ _ h => absurd h (Nat.not_lt_zero _), fun _ => le_top⟩

/-- One more tile: the minimum of the running minimum over the first `512 j` candidates and of the minimum of
    tile `j`'s 512 candidates is the running minimum over the first `512 (j + 1)`. -/
theorem isMinBelow_step (t : Fin 4096 → EReal) (j : Nat) (hj : j < 8) (v : EReal) (hv : IsMinBelow t (512 * j) v)
    (tile : Fin 512 → EReal) (htile : ∀ k : Fin 512, tile k = t ⟨512 * j + k.val, by have := k.isLt; omega⟩) :
    IsMinBelow t (512 * (j + 1)) (min v (Finset.univ.fold min ⊤ tile)) := by
  intro z
  rw [le_min_iff, hv z, le_foldMin]
  constructor
  · rintro ⟨h1, h2⟩ m hm
    by_cases h : m.val < 512 * j
    · exact h1 m h
    · have e := h2 ⟨m.val - 512 * j, by omega⟩
      rw [htile] at e
      have hm' : (⟨512 * j + (m.val - 512 * j), by omega⟩ : Fin 4096) = m := Fin.ext (by simp only; omega)
      rwa [hm'] at e
  · intro h
    refine ⟨fun m hm => h m (by omega), fun k => ?_⟩
    rw [htile]
    exact h _ (by have := k.isLt; simp only; omega)

/-- After all eight tiles the running minimum is the minimum of the whole row. -/
theorem eq_foldMin_of_isMinBelow (t : Fin 4096 → EReal) (v : EReal) (h : IsMinBelow t 4096 v) :
    v = Finset.univ.fold min ⊤ t := by
  apply le_antisymm
  · rw [le_foldMin]; intro k; exact (h v).mp le_rfl k k.isLt
  · rw [h]; intro m _; exact (le_foldMin t _).mp le_rfl m

/-- Adding a number that is not `-∞` commutes with a minimum taken from `⊤`. -/
theorem add_foldMin {ι : Type} (a : EReal) (ha : a ≠ ⊥) (f : ι → EReal) (s : Finset ι) :
    a + s.fold min ⊤ f = s.fold min ⊤ (fun k => a + f k) := by
  classical
  induction s using Finset.induction_on with
  | empty => simp only [Finset.fold_empty]; exact EReal.add_top_of_ne_bot ha
  | insert k s hk ih =>
    rw [Finset.fold_insert hk, Finset.fold_insert hk, ← ih]
    exact (min_add_add_left a _ _).symm

/-! ## The law that joins the two forms of a candidate -/

/-- On finite inputs the squared norm is a real number. -/
theorem normSq_finite (p : Cloud) (hp : Finite p) (b : Fin 16) (n : Fin 4096) : ∃ r : ℝ, normSq p b n = (r : EReal) := by
  obtain ⟨a0, h0⟩ := hp (ix3 b n 0)
  obtain ⟨a1, h1⟩ := hp (ix3 b n 1)
  obtain ⟨a2, h2⟩ := hp (ix3 b n 2)
  refine ⟨0 + (a0 * a0 + a1 * a1 + a2 * a2), ?_⟩
  unfold normSq
  rw [Fin.sum_univ_three, h0, h1, h2, Consts.ofBits_zero]
  norm_cast

/-- On finite inputs the expanded squared distance is `|x_n|²` plus the candidate that leaves it out: on the reals,
    `(a + c) - 2 Σ x y = a + (c + Σ (-2 x) y)`. -/
theorem dist_eq (x y : Cloud) (hx : Finite x) (hy : Finite y) (b : Fin 16) (n m : Fin 4096) :
    dist x y b n m = normSq x b n + cand x y b n m := by
  obtain ⟨a0, h0⟩ := hx (ix3 b n 0)
  obtain ⟨a1, h1⟩ := hx (ix3 b n 1)
  obtain ⟨a2, h2⟩ := hx (ix3 b n 2)
  obtain ⟨c0, k0⟩ := hy (ix3 b m 0)
  obtain ⟨c1, k1⟩ := hy (ix3 b m 1)
  obtain ⟨c2, k2⟩ := hy (ix3 b m 2)
  unfold dist cand cross normSq
  simp only [Fin.sum_univ_three, h0, h1, h2, k0, k1, k2, Consts.ofBits_zero, Consts.ofBits_two, Consts.ofBits_negTwo]
  norm_cast
  push_cast
  ring

/-- So on finite inputs the minimum of the expanded squared distances over a row is the nearest-point distance. -/
theorem foldMin_dist_eq (x y : Cloud) (hx : Finite x) (hy : Finite y) (b : Fin 16) (n : Fin 4096) :
    Finset.univ.fold min ⊤ (dist x y b n) = nearestAt x y b n := by
  obtain ⟨r, hr⟩ := normSq_finite x hx b n
  unfold nearestAt
  rw [add_foldMin _ (by rw [hr]; exact EReal.coe_ne_bot r)]
  exact congrArg (fun f => Finset.univ.fold min ⊤ f) (funext fun m => dist_eq x y hx hy b n m)

end Cert.Chamfer

end
-- ==== Proof.KBlocks.lean ====
/-
  What the region finds in its four input arrays, and which part of them a grid point sees.

  Before the region the host has computed, from the two clouds `x` and `y`: the query array `-2 x` with the point
  axis moved last ([16,3,4096]), the key array `y` with the point axis moved last, and the squared norms of the
  points of `x` and of `y` ([16,4096] each). Grid point `t` (of 64, the key tile moving fastest) is query tile
  `t / 8` and key tile `t % 8`: its query block holds points `512 (t / 8) + r`, its key block points
  `512 (t % 8) + k`, and the two norm blocks the matching 512 norms.
-/
import proofs.«161748_j60344290509660_2_alg».proof.Proof.Gen.KernelIdeal.Frame
import proofs.«161748_j60344290509660_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open scoped BigOperators

namespace Cert.KernelIdeal.Blocks

open Cert.KernelIdeal Cert.KernelIdeal.Gen Cert.Chamfer

variable (m : (ℓ : Loc nD τ sig) → Buf (Elt Ideal) ℓ)

/-- The cloud `x` as launched, on core `c`. -/
abbrev cloudX (c : Dev nD) : Cloud := m ((c : Thread nD τ).loc main_arg0)
/-- The cloud `y` as launched, on core `c`. -/
abbrev cloudY (c : Dev nD) : Cloud := m ((c : Thread nD τ).loc main_arg1)

/-! ## The arrays as the region finds them -/

theorem queries_eq (c : Dev nD) : (V m c main_v6 : S16x3x4096.Idx → EReal)
    = transpose S16x3x4096 [0, 2, 1] (mulf (broadcastInDim S16x4096x3 ![] bcast_S_S16x4096x3 (constant (F := Ideal) S_ .f32 0xC0000000#32)) (cloudX m c)) transposes_S16x4096x3_S16x3x4096_0_2_1 := by
  show StableHlo.after hostOps0 (fun b => m (c, b)) (Proc.devRef .tc main_v6) = _
  after_results

theorem keys_eq (c : Dev nD) : (V m c main_v7 : S16x3x4096.Idx → EReal)
    = transpose S16x3x4096 [0, 2, 1] (cloudY m c) transposes_S16x4096x3_S16x3x4096_0_2_1 := by
  show StableHlo.after hostOps0 (fun b => m (c, b)) (Proc.devRef .tc main_v7) = _
  after_results

theorem queryNorms_eq (c : Dev nD) : (V m c main_v1 : S16x4096.Idx → EReal)
    = Host.reduceAdd (F := Ideal) (mulf (cloudX m c) (cloudX m c)) (constant (F := Ideal) S_ .f32 0x00000000#32) reducesTo_S16x4096x3_S16x4096_d2 h_S_ := by
  show StableHlo.after hostOps0 (fun b => m (c, b)) (Proc.devRef .tc main_v1) = _
  after_results

theorem keyNorms_eq (c : Dev nD) : (V m c main_v3 : S16x4096.Idx → EReal)
    = Host.reduceAdd (F := Ideal) (mulf (cloudY m c) (cloudY m c)) (constant (F := Ideal) S_ .f32 0x00000000#32) reducesTo_S16x4096x3_S16x4096_d2 h_S_ := by
  show StableHlo.after hostOps0 (fun b => m (c, b)) (Proc.devRef .tc main_v3) = _
  after_results

/-! ## Their entries -/

/-- The host's sum of squares over the coordinate axis, at point `n` of cloud `b`, is the squared norm. -/
theorem sumSquares_apply (p : Cloud) (b : Fin 16) (n : Fin 4096) :
    Host.reduceAdd (F := Ideal) (mulf p p) (constant (F := Ideal) S_ .f32 0x00000000#32) reducesTo_S16x4096x3_S16x4096_d2 h_S_ (ix2 b n)
      = normSq p b n := by
  simp only [Host.reduceAdd, Ideal.hostReduceAdd_def]
  rw [Ideal.hostReduceAdd_single reducesTo_S16x4096x3_S16x4096_d2 (by decide)]
  unfold normSq
  refine congrArg₂ (· + ·) rfl (Finset.sum_congr rfl fun k _ => ?_)
  have e : (by decide : S16x4096x3.Reduces [2] S16x4096).lift (ix2 b n) k = ix3 b n k :=
    funext fun a => Fin.ext (by match a with | ⟨0, _⟩ => rfl | ⟨1, _⟩ => rfl | ⟨2, _⟩ => rfl)
  show (p _) * (p _) = _
  rw [e]
  rfl

theorem queries_apply (c : Dev nD) (b : Fin 16) (d : Fin 3) (n : Fin 4096) :
    V m c main_v6 (ix3 b d n) = Ideal.ofBits .f32 0xC0000000#32 * cloudX m c (ix3 b n d) := by
  rw [queries_eq]
  refine (transpose_ix3_021_apply _ transposes_S16x4096x3_S16x3x4096_0_2_1 b d n).trans ?_
  rfl

theorem keys_apply (c : Dev nD) (b : Fin 16) (d : Fin 3) (n : Fin 4096) :
    V m c main_v7 (ix3 b d n) = cloudY m c (ix3 b n d) := by
  rw [keys_eq]
  exact transpose_ix3_021_apply _ transposes_S16x4096x3_S16x3x4096_0_2_1 b d n

theorem queryNorms_apply (c : Dev nD) (b : Fin 16) (n : Fin 4096) :
    V m c main_v1 (ix2 b n) = normSq (cloudX m c) b n := by
  rw [queryNorms_eq]; exact sumSquares_apply _ b n

theorem keyNorms_apply (c : Dev nD) (b : Fin 16) (n : Fin 4096) :
    V m c main_v3 (ix2 b n) = normSq (cloudY m c) b n := by
  rw [keyNorms_eq]; exact sumSquares_apply _ b n

/-! ## The blocks a grid point sees -/

/-- Where the windows stand at grid point `t`: the query windows (and the output's) on tile `t / 8`, the key windows on
    tile `t % 8`, decided once over the 64 points. -/
theorem tiles : ∀ t : Fin cfg0.N,
    win0_0.index t (0 : Fin 3) = 0 ∧ win0_0.index t (1 : Fin 3) = 0 ∧ win0_0.index t (2 : Fin 3) = t.val / 8
    ∧ win0_1.index t (0 : Fin 3) = 0 ∧ win0_1.index t (1 : Fin 3) = 0 ∧ win0_1.index t (2 : Fin 3) = t.val % 8
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

/-- Point `512 q + r` of a cloud, for a tile `q < 8`. -/
abbrev pt (q : Nat) (hq : q < 8) (r : Fin 512) : Fin 4096 := ⟨512 * q + r.val, by have := r.isLt; omega⟩

theorem tile_lt (t : Fin cfg0.N) : t.val / 8 < 8 := by
  have : t.val < 64 := lt_of_lt_of_eq t.isLt (show cfg0.N = 64 from N_0); omega
theorem ktile_lt (t : Fin cfg0.N) : t.val % 8 < 8 := Nat.mod_lt _ (by decide)

theorem queryBlock_apply (c : Dev nD) (t : Fin cfg0.N) (b : Fin 16) (d : Fin 3) (r : Fin 512) :
    (iblk m c 0 t : Vec Ideal S16x3x512 .f32) (ix3 b d r) = V m c main_v6 (ix3 b d (pt (t.val / 8) (tile_lt t) r)) := by
  obtain ⟨e0, e1, e2, -⟩ := tiles t
  show V m c main_v6 (((cfg0.win 0).blk t).view.emb (ix3 b d r)) = _
  refine congrArg (V m c main_v6) (funext fun a => Fin.ext ?_)
  match a with
  | ⟨0, _⟩ => show win0_0.index t (0 : Fin 3) * 16 + 1 * b.val = b.val; omega
  | ⟨1, _⟩ => show win0_0.index t (1 : Fin 3) * 3 + 1 * d.val = d.val; omega
  | ⟨2, _⟩ => show win0_0.index t (2 : Fin 3) * 512 + 1 * r.val = 512 * (t.val / 8) + r.val; omega

theorem keyBlock_apply (c : Dev nD) (t : Fin cfg0.N) (b : Fin 16) (d : Fin 3) (k : Fin 512) :
    (iblk m c 1 t : Vec Ideal S16x3x512 .f32) (ix3 b d k) = V m c main_v7 (ix3 b d (pt (t.val % 8) (ktile_lt t) k)) := by
  obtain ⟨-, -, -, e0, e1, e2, -⟩ := tiles t
  show V m c main_v7 (((cfg0.win 1).blk t).view.emb (ix3 b d k)) = _
  refine congrArg (V m c main_v7) (funext fun a => Fin.ext ?_)
  match a with
  | ⟨0, _⟩ => show win0_1.index t (0 : Fin 3) * 16 + 1 * b.val = b.val; omega
  | ⟨1, _⟩ => show win0_1.index t (1 : Fin 3) * 3 + 1 * d.val = d.val; omega
  | ⟨2, _⟩ => show win0_1.index t (2 : Fin 3) * 512 + 1 * k.val = 512 * (t.val % 8) + k.val; omega

theorem queryNormBlock_apply (c : Dev nD) (t : Fin cfg0.N) (b : Fin 16) (r : Fin 512) :
    (iblk m c 2 t : Vec Ideal S16x512 .f32) (ix2 b r) = V m c main_v1 (ix2 b (pt (t.val / 8) (tile_lt t) r)) := by
  obtain ⟨-, -, -, -, -, -, e0, e1, -⟩ := tiles t
  show V m c main_v1 (((cfg0.win 2).blk t).view.emb (ix2 b r)) = _
  refine congrArg (V m c main_v1) (funext fun a => Fin.ext ?_)
  match a with
  | ⟨0, _⟩ => show win0_2.index t (0 : Fin 2) * 16 + 1 * b.val = b.val; omega
  | ⟨1, _⟩ => show win0_2.index t (1 : Fin 2) * 512 + 1 * r.val = 512 * (t.val / 8) + r.val; omega

theorem keyNormBlock_apply (c : Dev nD) (t : Fin cfg0.N) (b : Fin 16) (k : Fin 512) :
    (iblk m c 3 t : Vec Ideal S16x512 .f32) (ix2 b k) = V m c main_v3 (ix2 b (pt (t.val % 8) (ktile_lt t) k)) := by
  obtain ⟨-, -, -, -, -, -, -, -, e0, e1, -⟩ := tiles t
  show V m c main_v3 (((cfg0.win 3).blk t).view.emb (ix2 b k)) = _
  refine congrArg (V m c main_v3) (funext fun a => Fin.ext ?_)
  match a with
  | ⟨0, _⟩ => show win0_3.index t (0 : Fin 2) * 16 + 1 * b.val = b.val; omega
  | ⟨1, _⟩ => show win0_3.index t (1 : Fin 2) * 512 + 1 * k.val = 512 * (t.val % 8) + k.val; omega

end Cert.KernelIdeal.Blocks

end
-- ==== Proof.KAccum.lean ====
/-
  The running minimum across the grid.

  The 64 grid points come in eight runs of eight: run `t / 8` is a query tile, and within it `t % 8` walks the key
  tiles. After point `t` the running minimum, at query `r` of cloud `b`, is the least candidate among the first
  `512 (t % 8 + 1)` keys for query point `512 (t / 8) + r` — proved by induction on the point, each point taking
  one step from the minimum before it (from `⊤` where a run begins). At the end of a run that is the minimum of the
  whole row, and the output block is the squared norm of the query plus it: the nearest-point distance.
-/
import proofs.«161748_j60344290509660_2_alg».proof.Proof.KPieces
import proofs.«161748_j60344290509660_2_alg».proof.Proof.KPayload
import proofs.«161748_j60344290509660_2_alg».proof.Proof.KBlocks

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.Chamfer Cert.KernelIdeal.Blocks Cert.KernelIdeal.Pieces

variable (m : (ℓ : Loc nD τ sig) → Buf (Elt Ideal) ℓ)

theorem lt64 (t : Fin cfg0.N) : t.val < 64 := lt_of_lt_of_eq t.isLt (show cfg0.N = 64 from N_0)

/-- The running minimum a point starts from: `⊤` everywhere at the first key tile of a run, else what the point
    before left. -/
def before (c : Dev nD) (t : Fin cfg0.N) : Vec Ideal S16x512 .f32 :=
  if t.val % 8 = 0 then start (F := Ideal)
  else (outsAt0 m c (t.val - 1) (Nat.lt_of_le_of_lt (Nat.sub_le _ _) t.isLt)).2

/-- Every point leaves one step from the running minimum it starts from. -/
theorem acc_eq (c : Dev nD) (t : Fin cfg0.N) :
    (outsAt0 m c t.val t.isLt).2 = tileStep (F := Ideal) (iblk m c 0 t) (iblk m c 1 t) (iblk m c 3 t) (before m c t) := by
  have hN := lt64 t
  by_cases h0 : t.val % 8 = 0
  · have h1 : ¬t.val % 8 = 7 := by omega
    rw [outsAt0_A m c t h0 h1]
    dsimp only
    unfold before
    rw [if_pos h0]
    exact acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)
  · by_cases h1 : t.val % 8 = 7
    · rw [outsAt0_C m c t h0 h1]
      dsimp only
      unfold before
      rw [if_neg h0]
      exact acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
    · rw [outsAt0_B m c t h0 h1]
      dsimp only
      unfold before
      rw [if_neg h0]
      exact acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last key tile of a run the output block is the query norms plus the running minimum just left. -/
theorem out_eq (c : Dev nD) (t : Fin cfg0.N) (h1 : t.val % 8 = 7) :
    (outsAt0 m c t.val t.isLt).1 = withNorm (F := Ideal) (iblk m c 2 t) (outsAt0 m c t.val t.isLt).2 := by
  have h0 : ¬t.val % 8 = 0 := by omega
  rw [outsAt0_C m c t h0 h1]
  dsimp only
  rw [acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2]
  exact out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- One step at grid point `t`, in the specification's words: the minimum of the running minimum before and of the
    least candidate among key tile `t % 8`, for query point `512 (t / 8) + r`. -/
theorem step_at (c : Dev nD) (t : Fin cfg0.N) (acc : Vec Ideal S16x512 .f32) (b : Fin 16) (r : Fin 512) :
    tileStep (F := Ideal) (iblk m c 0 t) (iblk m c 1 t) (iblk m c 3 t) acc (ix2 b r)
      = min (acc (ix2 b r)) (Finset.univ.fold min ⊤ fun k : Fin 512 =>
          cand (cloudX m c) (cloudY m c) b (pt (t.val / 8) (tile_lt t) r) (pt (t.val % 8) (ktile_lt t) k)) := by
  refine (Payload.step_apply (iblk m c 0 t) (iblk m c 1 t) (iblk m c 3 t) acc b r).trans ?_
  refine congrArg (min (acc (ix2 b r))) (congrArg (fun f => Finset.fold min ⊤ f (Finset.univ : Finset (Fin 512))) (funext fun k => ?_))
  rw [keyNormBlock_apply, keyNorms_apply]
  unfold cand cross
  refine congrArg₂ (· + ·) rfl (Finset.sum_congr rfl fun d _ => ?_)
  rw [queryBlock_apply, keyBlock_apply, queries_apply, keys_apply]

theorem pt_congr {q q' : Nat} (e : q = q') (h : q < 8) (h' : q' < 8) (r : Fin 512) : pt q h r = pt q' h' r := by
  subst e; rfl

/-- THE RUNNING MINIMUM after point `n`: the least candidate among the first `512 (n % 8 + 1)` keys. -/
theorem running (c : Dev nD) : ∀ (n : ℕ) (h : n < cfg0.N) (b : Fin 16) (r : Fin 512),
    IsMinBelow (cand (cloudX m c) (cloudY m c) b (pt (n / 8) (tile_lt ⟨n, h⟩) r)) (512 * (n % 8 + 1))
      ((outsAt0 m c n h).2 (ix2 b r)) := by
  intro n
  induction n with
  | zero =>
    intro h b r
    have e := (congrFun (acc_eq m c ⟨0, h⟩) (ix2 b r)).trans (step_at m c ⟨0, h⟩ (before m c ⟨0, h⟩) b r)
    rw [e]
    refine isMinBelow_step _ (0 % 8) (by decide) _ ?_ _ (fun k => rfl)
    unfold before
    rw [if_pos (show (⟨0, h⟩ : Fin cfg0.N).val % 8 = 0 from rfl),
      show start (F := Ideal) (ix2 b r) = ⊤ from Payload.start_apply _]
    exact isMinBelow_zero _
  | succ k ih =>
    intro h b r
    have hN := lt64 ⟨k + 1, h⟩
    have e := (congrFun (acc_eq m c ⟨k + 1, h⟩) (ix2 b r)).trans (step_at m c ⟨k + 1, h⟩ (before m c ⟨k + 1, h⟩) b r)
    rw [e]
    refine isMinBelow_step _ ((k + 1) % 8) (Nat.mod_lt _ (by decide)) _ ?_ _ (fun k => rfl)
    unfold before
    by_cases h0 : (k + 1) % 8 = 0
    · rw [if_pos h0, show start (F := Ideal) (ix2 b r) = ⊤ from Payload.start_apply _]
      show IsMinBelow _ (512 * ((k + 1) % 8)) ⊤
      rw [h0]
      exact isMinBelow_zero _
    · rw [if_neg h0]
      have hk := ih (Nat.lt_of_succ_lt h) b r
      have hq : k / 8 = (k + 1) / 8 := by simp only at hN; omega
      have hj : k % 8 + 1 = (k + 1) % 8 := by omega
      rw [hj, pt_congr hq _ (tile_lt ⟨k + 1, h⟩) r] at hk
      exact hk

/-- At the last key tile of a run the output entry is the nearest-point distance of its query point. -/
theorem out_apply (c : Dev nD) (t : Fin cfg0.N) (h1 : t.val % 8 = 7) (b : Fin 16) (r : Fin 512) :
    (outsAt0 m c t.val t.isLt).1 (ix2 b r) = nearestAt (cloudX m c) (cloudY m c) b (pt (t.val / 8) (tile_lt t) r) := by
  rw [out_eq m c t h1]
  refine (Payload.withNorm_apply (iblk m c 2 t) (outsAt0 m c t.val t.isLt).2 (ix2 b r)).trans ?_
  rw [queryNormBlock_apply, queryNorms_apply]
  have hrun := running m c t.val t.isLt b r
  rw [h1] at hrun
  exact congrArg (normSq (cloudX m c) b (pt (t.val / 8) (tile_lt t) r) + ·) (eq_foldMin_of_isMinBelow _ _ hrun)

end Cert.KernelIdeal.Accum

end
-- ==== Proof.Tail.lean ====
/-
  What both programs do with the nearest-point distances once they have them: sum each cloud's 4096 distances,
  divide by 4096, and sum the 16 means. Named once, so that the two sides are compared before it and it is never
  opened.
-/
import Idealize.ShloMosaic.PureOps.Ideal

noncomputable section

namespace Cert.Chamfer

open Idealize.ShloMosaic

abbrev RowsShape : Shape := ⟨2, ![16, 4096]⟩
abbrev CloudsShape : Shape := ⟨1, ![16]⟩
abbrev ScalarShape : Shape := ⟨0, ![]⟩

/-- The mean over each cloud's points, summed over the clouds: `Σ_b (Σ_n rows (b, n)) / 4096`, every sum from the
    zero word, the divisor the word of `4096.0`. -/
def meanSum (h1 : RowsShape.ReducesTo [1] CloudsShape) (h0 : 0 < ScalarShape.numel)
    (hb : ScalarShape.BroadcastsInDim CloudsShape (![] : Fin 0 → Fin CloudsShape.rank))
    (h2 : CloudsShape.ReducesTo [0] ScalarShape) (rows : RowsShape.Idx → EReal) : ScalarShape.Idx → EReal :=
  Host.reduceAdd (F := Ideal) (φ := .f32)
    (Host.divf (F := Ideal) (φ := .f32)
      (Host.reduceAdd (F := Ideal) (φ := .f32) rows (constant (F := Ideal) ScalarShape .f32 0x00000000#32) h1 h0)
      (broadcastInDim CloudsShape ![] hb (constant (F := Ideal) ScalarShape .f32 0x45800000#32)))
    (constant (F := Ideal) ScalarShape .f32 0x00000000#32) h2 h0

end Cert.Chamfer

end
-- ==== Proof.KFinal.lean ====
/-
  The kernel's result.

  The output array is written back once per run of eight grid points, at the run's last point, one block of 512
  query points of every cloud per run; the eight blocks tile the [16,4096] array. What is written back is, entry by
  entry, the nearest-point distance, so after the region the array holds the nearest-point distances; the host
  lines after the region apply the mean-and-sum tail to it.
-/
import proofs.«161748_j60344290509660_2_alg».proof.Proof.KAccum
import proofs.«161748_j60344290509660_2_alg».proof.Proof.Tail

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Chamfer Cert.KernelIdeal.Blocks Cert.KernelIdeal.Accum

variable (m : (ℓ : Loc nD τ sig) → Buf (Elt Ideal) ℓ) (ρ : Dev nD → PrngReg)

/-- An entry of the output array lies in grid point `t`'s block iff each coordinate lies in the block's range. -/
theorem mem_block (t : Fin cfg0.N) (i : S16x4096.Idx) :
    i ∈ ((cfg0.win 4).blk t).view.set ↔ ∀ a : Fin 2, win0_4.index t a * S16x512.size a ≤ (i a).val ∧ (i a).val < win0_4.index t a * S16x512.size a + S16x512.size a := by
  show i ∈ ((View.whole main_v8).slice (win0_4.rect t)).set ↔ _
  rw [View.set_slice_whole, Rect.mem_set_unit]
  exact Iff.rfl

/-- What a run's last point writes back is its block of the nearest-point distances. -/
theorem writtenBack_eq (c : Dev nD) (t : Fin cfg0.N) (hf : (cfg0.win 4).flush t = true) :
    (dats m 0 c).flushed 4 t = ((cfg0.win 4).blk t).view.read (Elt Ideal) (nearest (cloudX m c) (cloudY m c)) := by
  have h7 : t.val % 8 = 7 := (flush0_4 t).mp hf
  show (cfg0.win 4).cut (grid0.coords t) ((dats m 0 c).after 4 t) = _
  rw [after0_4]
  funext j
  obtain ⟨b, r, rfl⟩ : ∃ (b : Fin 16) (r : Fin 512), j = ix2 b r := ⟨j 0, j 1, eq_ix2 j⟩
  show (outsAt0 m c t.val t.isLt).1 (ix2 b r) = nearest (cloudX m c) (cloudY m c) (((cfg0.win 4).blk t).view.emb (ix2 b r))
  have hemb : ((cfg0.win 4).blk t).view.emb (ix2 b r) = ix2 b (pt (t.val / 8) (tile_lt t) r) := by
    obtain ⟨-, -, -, -, -, -, -, -, -, -, e0, e1⟩ := tiles t
    funext a
    apply Fin.ext
    match a with
    | ⟨0, _⟩ => show win0_4.index t (0 : Fin 2) * 16 + 1 * b.val = b.val; omega
    | ⟨1, _⟩ => show win0_4.index t (1 : Fin 2) * 512 + 1 * r.val = 512 * (t.val / 8) + r.val; omega
  rw [hemb, nearest_ix2]
  exact out_apply m c t h7 b r

/-- Every entry of the output array lies in the block of some run's last point: point `n` in that of run `n / 512`. -/
theorem covered (i : S16x4096.Idx) : ∃ t : Fin cfg0.N, (cfg0.win 4).flush t = true ∧ i ∈ ((cfg0.win 4).blk t).view.set := by
  have h0 : (i 0).val < 16 := (i 0).isLt
  have h1 : (i 1).val < 4096 := (i 1).isLt
  have hN : cfg0.N = 64 := N_0
  have ht : 8 * ((i 1).val / 512) + 7 < cfg0.N := by rw [hN]; omega
  obtain ⟨-, -, -, -, -, -, -, -, -, -, e0, e1⟩ := tiles ⟨8 * ((i 1).val / 512) + 7, ht⟩
  refine ⟨⟨8 * ((i 1).val / 512) + 7, ht⟩, (flush0_4 _).mpr (by show (8 * ((i 1).val / 512) + 7) % 8 = 7; omega), ?_⟩
  rw [mem_block]
  have hq : (8 * ((i 1).val / 512) + 7) / 8 = (i 1).val / 512 := by omega
  simp only at e1
  rw [hq] at e1
  intro a
  match a with
  | ⟨0, _⟩ =>
    show win0_4.index ⟨8 * ((i 1).val / 512) + 7, ht⟩ (0 : Fin 2) * 16 ≤ (i 0).val ∧ (i 0).val < win0_4.index ⟨8 * ((i 1).val / 512) + 7, ht⟩ (0 : Fin 2) * 16 + 16
    omega
  | ⟨1, _⟩ =>
    show win0_4.index ⟨8 * ((i 1).val / 512) + 7, ht⟩ (1 : Fin 2) * 512 ≤ (i 1).val ∧ (i 1).val < win0_4.index ⟨8 * ((i 1).val / 512) + 7, ht⟩ (1 : Fin 2) * 512 + 512
    omega

/-- THE OUTPUT ARRAY after the region: the nearest-point distances. -/
theorem distances_eq (c : Dev nD) : (dats m 0 c).arrAt 4 cfg0.N = nearest (cloudX m c) (cloudY m c) :=
  (dats m 0 c).arrAt_eq_of_cover 4 (nearest (cloudX m c) (cloudY m c)) (writtenBack_eq m c) covered

/-- THE RESULT: the host lines after the region are the mean-and-sum tail of the output array. -/
theorem result_eq (c : Dev nD) :
    Pipeline.afterTail₀ cfgs (dats m) 0 (V0 m) [hostOps1] c main_v12
      = meanSum reducesTo_S16x4096_S16_d1 h_S_ bcast_S_S16 reducesTo_S16_S_d0 (nearest (cloudX m c) (cloudY m c)) := by
  unfold Pipeline.afterTail₀
  show StableHlo.after hostOps1 _ (Proc.devRef .tc main_v12) = _
  after_results
  exact congrArg (meanSum reducesTo_S16x4096_S16_d1 h_S_ bcast_S_S16 reducesTo_S16_S_d0)
    ((Pipeline.withArrays_arr spec0 launch0.win.arr_inj c _ _ 4).trans (distances_eq m c))

/-- The kernel's run, read: the result at the tail of the nearest-point distances of the clouds as launched, the
    clouds unchanged. -/
theorem run : θ_run defs (onTc (τ := τ) (main (F := Ideal))) ⟨m, fun _ => 0, ρ⟩ fun r => ∀ c : Dev nD,
      r.2.mem ((c.tc : Thread nD τ).loc main_v12)
        = meanSum reducesTo_S16x4096_S16_d1 h_S_ bcast_S_S16 reducesTo_S16_S_d0 (nearest (cloudX m c) (cloudY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference, read entry by entry.

  The reference forms, for every pair of a point `n` of `x` and a point `m` of `y` in the same cloud, the expanded
  squared distance `(|x_n|² + |y_m|²) - 2 (x_n·y_m)`, takes the minimum of each row from `+∞`, and ends with the
  mean-and-sum tail. So its result is the tail of the row minima of `dist`, and on finite inputs those row minima
  are `nearest`.
-/
import proofs.«161748_j60344290509660_2_alg».proof.Proof.Gen.ReferenceIdeal.Read
import proofs.«161748_j60344290509660_2_alg».proof.Proof.Spec
import proofs.«161748_j60344290509660_2_alg».proof.Proof.Tail
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Gen Cert.ReferenceIdeal.Read Cert.Chamfer

/-- The reference's distance tensor at (b, n, m) is the expanded squared distance. -/
theorem dist_apply (x y : Cloud) (b : Fin 16) (n m : Fin 4096) :
    val_main_v12 (F := Ideal) x y (ix3 b n m) = dist x y b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply, val_main_v4_apply]
  simp only [val_main_v0_apply, val_main_v2_apply, val_main_cst_apply, val_main_cst_0_apply, val_main_cst_1_apply,
    e1, e3, el, er, Ideal.subf_def, Ideal.addf_def, Ideal.mulf_def, Ideal.ofBits_def]
  rfl

/-- The reference's row minimum at (b, n) is the minimum of the expanded squared distances over the row, from `⊤`. -/
theorem rowMin_apply (x y : Cloud) (b : Fin 16) (n : Fin 4096) :
    val_main_v13 (F := Ideal) x y (ix2 b n) = Finset.univ.fold min ⊤ (dist x y b n) := by
  have hf : ∀ k : Fin 4096, val_main_v12 (F := Ideal) x y ((by decide : S16x4096x4096.Reduces [2] S16x4096).lift (ix2 b n) k) = dist x y b n k := fun k => by
    have e : (by decide : S16x4096x4096.Reduces [2] S16x4096).lift (ix2 b n) k = ix3 b n k :=
      funext fun a => Fin.ext (by match a with | ⟨0, _⟩ => rfl | ⟨1, _⟩ => rfl | ⟨2, _⟩ => rfl)
    rw [e]; exact dist_apply x y b n k
  unfold val_main_v13
  generalize val_main_v12 (F := Ideal) x y = D at hf
  refine (Host.reduce_eq_fold_single (FloatOps.minimumf (F := Ideal) (φ := .f32)) D (val_main_cst_2 (F := Ideal))
    reducesTo_S16x4096x4096_S16x4096_d2 (by decide) h_S_ (ix2 b n)).trans ?_
  have hinit : val_main_cst_2 (F := Ideal) (Shape.Idx.first h_S_) = ⊤ := Consts.ofBits_inf
  refine (congrArg (fun z => Finset.fold min z _ (Finset.univ : Finset (Fin 4096))) hinit).trans ?_
  exact congrArg (fun f => Finset.fold min ⊤ f (Finset.univ : Finset (Fin 4096))) (funext hf)

/-- On finite inputs the reference's row minima are the nearest-point distances. -/
theorem rowMin_eq_nearest (x y : Cloud) (hx : Finite x) (hy : Finite y) : val_main_v13 (F := Ideal) x y = nearest x y :=
  funext fun i => by
    obtain ⟨b, n, rfl⟩ : ∃ (b : Fin 16) (n : Fin 4096), i = ix2 b n := ⟨i 0, i 1, eq_ix2 i⟩
    exact (rowMin_apply x y b n).trans (foldMin_dist_eq x y hx hy b n)

/-- The reference's result is the mean-and-sum tail of its row minima. -/
theorem result_eq (x y : Cloud) :
    val_main_v17 (F := Ideal) x y = meanSum reducesTo_S16x4096_S16_d1 h_S_ bcast_S_S16 reducesTo_S16_S_d0 (val_main_v13 (F := Ideal) x y) := rfl

end Cert.ReferenceIdeal.RefValue

end
-- ==== Proof.FiniteInputs.lean ====
/-
  The precondition, read back: every coordinate of both clouds is a real number.

  The precondition is the conjunction of two `all`s, one per cloud, of the comparison `|p| < +∞` entry by entry. An
  extended real whose absolute value `max p (-p)` is below `⊤` is neither `⊤` nor `⊥`, hence a real.
-/
import proofs.«161748_j60344290509660_2_alg».proof.Pre_finite_inputs
import proofs.«161748_j60344290509660_2_alg».proof.Proof.Spec
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Chamfer

/-- An extended real whose absolute value is below `+∞` is a real number. -/
theorem real_of_abs_lt_top (p : EReal) (h : Ideal.cmp .olt (max p (-p)) (Ideal.ofBits .f32 0x7F800000#32) = 1#1) :
    ∃ r : ℝ, p = (r : EReal) := by
  rw [Consts.ofBits_inf] at h
  have hlt : max p (-p) < ⊤ := by
    by_contra hn
    simp [Ideal.cmp, hn] at h
  induction p using EReal.rec with
  | bot => simp at hlt
  | coe r => exact ⟨r, rfl⟩
  | top => simp at hlt

instance : Subsingleton Cert.Pre_finite_inputs.S_.Idx := ⟨fun a b => funext fun d => d.elim0⟩

/-- Under the precondition both clouds are finite. -/
theorem finite_of_pre [Cert.Pre_finite_inputs.Facts] (x y : Cloud)
    (h : Cert.Pre_finite_inputs.fn (F := Ideal) x y = fun _ => 1#1) : Finite x ∧ Finite y := by
  have h0 := congrFun h ix0
  dsimp only [Cert.Pre_finite_inputs.fn] at h0
  obtain ⟨ha, hb⟩ := IntOp.andi_eq_one.1 h0
  refine ⟨fun i => ?_, fun i => ?_⟩
  · exact real_of_abs_lt_top (x i) (Host.reduce_andi_all _ _ _ _ ix0 ha i)
  · exact real_of_abs_lt_top (y i) (Host.reduce_andi_all _ _ _ _ ix0 hb i)

end Cert.Chamfer

end
-- ==== Proof.lean ====
/-
  Nearest-point (one-sided Chamfer) distance between two batches of point clouds: a tiled kernel against the
  expansion `|x|² + |y|² - 2 x·y`.

  For clouds `x, y : [16, 4096, 3]` both programs return `Σ_b (1/4096) Σ_n min_m |x_{b,n} - y_{b,m}|²`. The reference
  forms every squared distance as `(|x_n|² + |y_m|²) - 2 (x_n·y_m)` and takes the minimum of each row. The kernel keeps
  `|x_n|²` out of the minimum, folds the factor `-2` into `x` beforehand, and walks the keys in eight tiles of 512,
  keeping a running minimum that starts at `+∞`; at the last tile it adds `|x_n|²` back. Over the extended reals the
  two agree on finite inputs: there `(a + c) - 2 Σ x y = a + (c + Σ (-2 x) y)` is an identity of real numbers
  (Proof/Spec.lean), a minimum is known by its lower bounds whatever the order and grouping it was taken in, and
  adding a finite number commutes with a minimum from `⊤`. The precondition is used exactly there.

  The modules: Spec (the mathematics, no program), Consts (the four literals), Tail (the shared mean-and-sum);
  KPieces, KPayload, KBlocks, KAccum, KFinal (the kernel: what a grid point leaves, the body's arithmetic at an
  entry, the input blocks, the running minimum across the grid, the output array and the result); RefValue (the
  reference entry by entry); FiniteInputs (the precondition read back).
-/
import proofs.«161748_j60344290509660_2_alg».proof.Defs
import proofs.«161748_j60344290509660_2_alg».proof.Proof.Gen.Kernel
import proofs.«161748_j60344290509660_2_alg».proof.Proof.Gen.Kernel.Frame
import proofs.«161748_j60344290509660_2_alg».proof.Proof.Gen.KernelIdeal
import proofs.«161748_j60344290509660_2_alg».proof.Proof.Gen.KernelIdeal.Frame
import proofs.«161748_j60344290509660_2_alg».proof.Proof.Gen.ReferenceIdeal
import proofs.«161748_j60344290509660_2_alg».proof.Proof.Gen.Pre_finite_inputs
import proofs.«161748_j60344290509660_2_alg».proof.Proof.Gen.ReferenceIdeal.Run
import proofs.«161748_j60344290509660_2_alg».proof.Proof.Gen.ReferenceIdeal.Read
import proofs.«161748_j60344290509660_2_alg».proof.Proof.KFinal
import proofs.«161748_j60344290509660_2_alg».proof.Proof.RefValue
import proofs.«161748_j60344290509660_2_alg».proof.Proof.FiniteInputs
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the mean-and-sum tail of the nearest-point distances of the clouds: the kernel
    on any input, the reference on finite ones. -/
theorem algebraic : Cert.algebraic_KernelIdeal_ReferenceIdeal := by
  intro m ρ m' ρ' hpre hagree
  refine ⟨fun c => Cert.Chamfer.meanSum Cert.KernelIdeal.Gen.reducesTo_S16x4096_S16_d1 Cert.KernelIdeal.Gen.h_S_
      Cert.KernelIdeal.Gen.bcast_S_S16 Cert.KernelIdeal.Gen.reducesTo_S16_S_d0
      (Cert.Chamfer.nearest (Cert.KernelIdeal.Blocks.cloudX m c) (Cert.KernelIdeal.Blocks.cloudY m c)),
    Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨hx, hy⟩ := Cert.Chamfer.finite_of_pre _ _ (hpre c)
  rw [(h c).1, Cert.ReferenceIdeal.Read.val_main_v17_eq, Cert.ReferenceIdeal.RefValue.result_eq, (hagree c).1, (hagree c).2,
    Cert.ReferenceIdeal.RefValue.rowMin_eq_nearest _ _ hx hy]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
